-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x50 : Shape := ⟨2, ![131072, 50]⟩
abbrev S50x64 : Shape := ⟨2, ![50, 64]⟩
abbrev S1x64 : Shape := ⟨2, ![1, 64]⟩
abbrev S64x50 : Shape := ⟨2, ![64, 50]⟩
abbrev S1x50 : Shape := ⟨2, ![1, 50]⟩
abbrev S_ : Shape := ⟨0, ![]⟩

class Facts : Prop where
  bcast_S_S131072x50 : S_.BroadcastsInDim S131072x50 (![] : Fin 0 → Fin S131072x50.rank)
  reducesTo_S131072x50_S_d0_1 : S131072x50.ReducesTo [0, 1] S_
  h_S_ : 0 < S_.numel
  bcast_S_S50x64 : S_.BroadcastsInDim S50x64 (![] : Fin 0 → Fin S50x64.rank)
  reducesTo_S50x64_S_d0_1 : S50x64.ReducesTo [0, 1] S_
  bcast_S_S1x64 : S_.BroadcastsInDim S1x64 (![] : Fin 0 → Fin S1x64.rank)
  reducesTo_S1x64_S_d0_1 : S1x64.ReducesTo [0, 1] S_
  bcast_S_S64x50 : S_.BroadcastsInDim S64x50 (![] : Fin 0 → Fin S64x50.rank)
  reducesTo_S64x50_S_d0_1 : S64x50.ReducesTo [0, 1] S_
  bcast_S_S1x50 : S_.BroadcastsInDim S1x50 (![] : Fin 0 → Fin S1x50.rank)
  reducesTo_S1x50_S_d0_1 : S1x50.ReducesTo [0, 1] S_

variable [Facts]

def fn_part1 {F : FTy → Type} [FloatOps F] (main_arg4 : FVec F S1x50 .f32) (main_v13 : IVec S_ 1) (main_v16 : IVec S64x50 1) : IVec S_ 1 :=
  let main_c_5 : IVec S_ 1 := constantI S_ 1 1#1
  let main_v17 : IVec S_ 1 := (fun x v => Host.reduce IntOp.andi x v reducesTo_S64x50_S_d0_1 h_S_) main_v16 main_c_5
  let main_v18 : IVec S_ 1 := andi main_v13 main_v17
  let main_v19 : FVec F S1x50 .f32 := Host.absf main_arg4
  let main_cst_6 : FVec F S_ .f32 := constant S_ .f32 0x7F800000#32
  let main_v20 : FVec F S1x50 .f32 := broadcastInDim S1x50 ![] bcast_S_S1x50 main_cst_6
  let main_v21 : IVec S1x50 1 := cmpf .olt main_v19 main_v20
  let main_c_7 : IVec S_ 1 := constantI S_ 1 1#1
  let main_v22 : IVec S_ 1 := (fun x v => Host.reduce IntOp.andi x v reducesTo_S1x50_S_d0_1 h_S_) main_v21 main_c_7
  let main_v23 : IVec S_ 1 := andi main_v18 main_v22
  main_v23

def fn {F : FTy → Type} [FloatOps F] (main_arg0 : FVec F S131072x50 .f32) (main_arg1 : FVec F S50x64 .f32) (main_arg2 : FVec F S1x64 .f32) (main_arg3 : FVec F S64x50 .f32) (main_arg4 : FVec F S1x50 .f32) : IVec S_ 1 :=
  let main_v0 : FVec F S131072x50 .f32 := Host.absf main_arg0
  let main_cst : FVec F S_ .f32 := constant S_ .f32 0x7F800000#32
  let main_v1 : FVec F S131072x50 .f32 := broadcastInDim S131072x50 ![] bcast_S_S131072x50 main_cst
  let main_v2 : IVec S131072x50 1 := cmpf .olt main_v0 main_v1
  let main_c : IVec S_ 1 := constantI S_ 1 1#1
  let main_v3 : IVec S_ 1 := (fun x v => Host.reduce IntOp.andi x v reducesTo_S131072x50_S_d0_1 h_S_) main_v2 main_c
  let main_v4 : FVec F S50x64 .f32 := Host.absf main_arg1
  let main_cst_0 : FVec F S_ .f32 := constant S_ .f32 0x7F800000#32
  let main_v5 : FVec F S50x64 .f32 := broadcastInDim S50x64 ![] bcast_S_S50x64 main_cst_0
  let main_v6 : IVec S50x64 1 := cmpf .olt main_v4 main_v5
  let main_c_1 : IVec S_ 1 := constantI S_ 1 1#1
  let main_v7 : IVec S_ 1 := (fun x v => Host.reduce IntOp.andi x v reducesTo_S50x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x50 .f32 := Host.absf main_arg3
  let main_cst_4 : FVec F S_ .f32 := constant S_ .f32 0x7F800000#32
  let main_v15 : FVec F S64x50 .f32 := broadcastInDim S64x50 ![] bcast_S_S64x50 main_cst_4
  let main_v16 : IVec S64x50 1 := cmpf .olt main_v14 main_v15
  fn_part1 (F := F) main_arg4 main_v13 main_v16
-- ==== Kernel.lean ====
abbrev S131072x50 : Shape := ⟨2, ![131072, 50]⟩
abbrev S50x64 : Shape := ⟨2, ![50, 64]⟩
abbrev S1x64 : Shape := ⟨2, ![1, 64]⟩
abbrev S64x50 : Shape := ⟨2, ![64, 50]⟩
abbrev S1x50 : Shape := ⟨2, ![1, 50]⟩
abbrev S2048x50 : Shape := ⟨2, ![2048, 50]⟩
abbrev S2048x64 : Shape := ⟨2, ![2048, 64]⟩

abbrev nBuf : Space → Nat
  | .hbm => 6
  | .vmem => 8
  | .smem => 0
  | _ => 0

abbrev bufTy : (tb : Table) → Fin (tcTables nBuf tb) → BufTy
  | .hbm, ⟨0, _⟩ => ⟨S131072x50, .f32⟩
  | .hbm, ⟨1, _⟩ => ⟨S50x64, .f32⟩
  | .hbm, ⟨2, _⟩ => ⟨S1x64, .f32⟩
  | .hbm, ⟨3, _⟩ => ⟨S64x50, .f32⟩
  | .hbm, ⟨4, _⟩ => ⟨S1x50, .f32⟩
  | .hbm, ⟨5, _⟩ => ⟨S131072x50, .f32⟩
  | .local _ .vmem, ⟨0, _⟩ => ⟨S2048x50, .f32⟩
  | .local _ .vmem, ⟨1, _⟩ => ⟨S2048x50, .f32⟩
  | .local _ .vmem, ⟨2, _⟩ => ⟨S50x64, .f32⟩
  | .local _ .vmem, ⟨3, _⟩ => ⟨S1x64, .f32⟩
  | .local _ .vmem, ⟨4, _⟩ => ⟨S64x50, .f32⟩
  | .local _ .vmem, ⟨5, _⟩ => ⟨S1x50, .f32⟩
  | .local _ .vmem, ⟨6, _⟩ => ⟨S2048x50, .f32⟩
  | .local _ .vmem, ⟨7, _⟩ => ⟨S2048x50, .f32⟩
  | _, _ => ⟨S131072x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2048x50_S2048x50_0_0 : ∀ a, (![0, 0] : Fin 2 → Nat) a + S2048x50.size a ≤ S2048x50.size a
  h_S2048x50 : 0 < S2048x50.numel
  bitsLt_bf16_f32 : FTy.bits .bf16 < FTy.bits .f32
  inb_S50x64_S50x64_0_0 : ∀ a, (![0, 0] : Fin 2 → Nat) a + S50x64.size a ≤ S50x64.size a
  h_S50x64 : 0 < S50x64.numel
  inb_S1x64_S1x64_0_0 : ∀ a, (![0, 0] : Fin 2 → Nat) a + S1x64.size a ≤ S1x64.size a
  h_S1x64 : 0 < S1x64.numel
  broadcasts_S1x64_S2048x64 : S1x64.Broadcasts S2048x64
  inb_S64x50_S64x50_0_0 : ∀ a, (![0, 0] : Fin 2 → Nat) a + S64x50.size a ≤ S64x50.size a
  h_S64x50 : 0 < S64x50.numel
  inb_S1x50_S1x50_0_0 : ∀ a, (![0, 0] : Fin 2 → Nat) a + S1x50.size a ≤ S1x50.size a
  h_S1x50 : 0 < S1x50.numel
  broadcasts_S1x50_S2048x50 : S1x50.Broadcasts S2048x50
  dot_S2048x50_S50x64_S2048x64_1_0_0_1_n_n_wf : DotDims.WF S2048x50 S50x64 S2048x64 [1] [0] [0] [1] [] []
  dot_S2048x64_S64x50_S2048x50_1_0_0_1_n_n_wf : DotDims.WF S2048x64 S64x50 S2048x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x50.size a ≤ S131072x50.size a
  hwx0_0 : ∀ i : grid0.Coords, EltTy.bits .f32 = 32 ∨ (Rect.block (s := S131072x50) S2048x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x64.size a ≤ S50x64.size a
  hwx0_1 : ∀ i : grid0.Coords, EltTy.bits .f32 = 32 ∨ (Rect.block (s := S50x64) S50x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x50.size a ≤ S64x50.size a
  hwx0_3 : ∀ i : grid0.Coords, EltTy.bits .f32 = 32 ∨ (Rect.block (s := S64x50) S64x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x50.size a ≤ S131072x50.size a
  hwx0_5 : ∀ i : grid0.Coords, EltTy.bits .f32 = 32 ∨ (Rect.block (s := S131072x50) S2048x50.size (cc0_transform_5 i) (hinb0_5 i)).WholeWords (EltTy.packing .f32)

variable [Facts₀]

def dot_S2048x50_S50x64_S2048x64_1_0_0_1_n_n : DotDims S2048x50 S50x64 S2048x64 where
  lhsContracting := [1]
  rhsContracting := [0]
  lhsNonContracting := [0]
  rhsNonContracting := [1]
  lhsBatch := []
  rhsBatch := []
  wf := dot_S2048x50_S50x64_S2048x64_1_0_0_1_n_n_wf
def dot_S2048x64_S64x50_S2048x50_1_0_0_1_n_n : DotDims S2048x64 S64x50 S2048x50 where
  lhsContracting := [1]
  rhsContracting := [0]
  lhsNonContracting := [0]
  rhsNonContracting := [1]
  lhsBatch := []
  rhsBatch := []
  wf := dot_S2048x64_S64x50_S2048x50_1_0_0_1_n_n_wf

abbrev win0_0 : Pipeline.Window sig grid0 :=
  Pipeline.Window.ofSpec (Memref.whole main_arg0) S2048x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x50.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x50 : Shape := ⟨2, ![131072, 50]⟩
abbrev S50x64 : Shape := ⟨2, ![50, 64]⟩
abbrev S1x64 : Shape := ⟨2, ![1, 64]⟩
abbrev S64x50 : Shape := ⟨2, ![64, 50]⟩
abbrev S1x50 : Shape := ⟨2, ![1, 50]⟩
abbrev S1024x50 : Shape := ⟨2, ![1024, 50]⟩
abbrev S1024x64 : Shape := ⟨2, ![1024, 64]⟩

abbrev nBuf : Space → Nat
  | .hbm => 6
  | .vmem => 8
  | .smem => 0
  | _ => 0

abbrev bufTy : (tb : Table) → Fin (tcTables nBuf tb) → BufTy
  | .hbm, ⟨0, _⟩ => ⟨S131072x50, .f32⟩
  | .hbm, ⟨1, _⟩ => ⟨S50x64, .f32⟩
  | .hbm, ⟨2, _⟩ => ⟨S1x64, .f32⟩
  | .hbm, ⟨3, _⟩ => ⟨S64x50, .f32⟩
  | .hbm, ⟨4, _⟩ => ⟨S1x50, .f32⟩
  | .hbm, ⟨5, _⟩ => ⟨S131072x50, .f32⟩
  | .local _ .vmem, ⟨0, _⟩ => ⟨S1024x50, .f32⟩
  | .local _ .vmem, ⟨1, _⟩ => ⟨S1024x50, .f32⟩
  | .local _ .vmem, ⟨2, _⟩ => ⟨S50x64, .f32⟩
  | .local _ .vmem, ⟨3, _⟩ => ⟨S1x64, .f32⟩
  | .local _ .vmem, ⟨4, _⟩ => ⟨S64x50, .f32⟩
  | .local _ .vmem, ⟨5, _⟩ => ⟨S1x50, .f32⟩
  | .local _ .vmem, ⟨6, _⟩ => ⟨S1024x50, .f32⟩
  | .local _ .vmem, ⟨7, _⟩ => ⟨S1024x50, .f32⟩
  | _, _ => ⟨S131072x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x50_S1024x50_0_0 : ∀ a, (![0, 0] : Fin 2 → Nat) a + S1024x50.size a ≤ S1024x50.size a
  h_S1024x50 : 0 < S1024x50.numel
  inb_S50x64_S50x64_0_0 : ∀ a, (![0, 0] : Fin 2 → Nat) a + S50x64.size a ≤ S50x64.size a
  h_S50x64 : 0 < S50x64.numel
  inb_S1x64_S1x64_0_0 : ∀ a, (![0, 0] : Fin 2 → Nat) a + S1x64.size a ≤ S1x64.size a
  h_S1x64 : 0 < S1x64.numel
  broadcasts_S1x64_S1024x64 : S1x64.Broadcasts S1024x64
  inb_S64x50_S64x50_0_0 : ∀ a, (![0, 0] : Fin 2 → Nat) a + S64x50.size a ≤ S64x50.size a
  h_S64x50 : 0 < S64x50.numel
  inb_S1x50_S1x50_0_0 : ∀ a, (![0, 0] : Fin 2 → Nat) a + S1x50.size a ≤ S1x50.size a
  h_S1x50 : 0 < S1x50.numel
  broadcasts_S1x50_S1024x50 : S1x50.Broadcasts S1024x50
  dot_S1024x50_S50x64_S1024x64_1_0_0_1_n_n_wf : DotDims.WF S1024x50 S50x64 S1024x64 [1] [0] [0] [1] [] []
  dot_S1024x64_S64x50_S1024x50_1_0_0_1_n_n_wf : DotDims.WF S1024x64 S64x50 S1024x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x50.size a ≤ S131072x50.size a
  hwx0_0 : ∀ i : grid0.Coords, EltTy.bits .f32 = 32 ∨ (Rect.block (s := S131072x50) S1024x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x64.size a ≤ S50x64.size a
  hwx0_1 : ∀ i : grid0.Coords, EltTy.bits .f32 = 32 ∨ (Rect.block (s := S50x64) S50x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x50.size a ≤ S64x50.size a
  hwx0_3 : ∀ i : grid0.Coords, EltTy.bits .f32 = 32 ∨ (Rect.block (s := S64x50) S64x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x50.size a ≤ S131072x50.size a
  hwx0_5 : ∀ i : grid0.Coords, EltTy.bits .f32 = 32 ∨ (Rect.block (s := S131072x50) S1024x50.size (cc0_transform_5 i) (hinb0_5 i)).WholeWords (EltTy.packing .f32)

variable [Facts₀]

def dot_S1024x50_S50x64_S1024x64_1_0_0_1_n_n : DotDims S1024x50 S50x64 S1024x64 where
  lhsContracting := [1]
  rhsContracting := [0]
  lhsNonContracting := [0]
  rhsNonContracting := [1]
  lhsBatch := []
  rhsBatch := []
  wf := dot_S1024x50_S50x64_S1024x64_1_0_0_1_n_n_wf
def dot_S1024x64_S64x50_S1024x50_1_0_0_1_n_n : DotDims S1024x64 S64x50 S1024x50 where
  lhsContracting := [1]
  rhsContracting := [0]
  lhsNonContracting := [0]
  rhsNonContracting := [1]
  lhsBatch := []
  rhsBatch := []
  wf := dot_S1024x64_S64x50_S1024x50_1_0_0_1_n_n_wf

abbrev win0_0 : Pipeline.Window sig grid0 :=
  Pipeline.Window.ofSpec (Memref.whole main_arg0) S1024x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x50.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Head.lean ====
/-
  The two-layer head, as one function of its arguments over the extended reals.

  For a row `x` of 50 entries, a 50×64 matrix `w1`, a 1×64 row `b1`, a 64×50 matrix `w2` and a 1×50 row `b2`, entry `q`
  of the head is
      Σ_{k<64} max (Σ_{j<50} x j · w1 (j, k) + b1 (0, k)) z · w2 (k, q)  +  b2 (0, q),
  `z` the value of the f32 zero word. `mlp` applies it row by row to an array of any number of rows: entry `(r, q)`
  of the result depends on row `r` of `x` alone, which is why the array may be cut into row blocks of any height.
-/
import Idealize.ShloMosaic.PureOps.Ideal
import Idealize.ShloMosaic.Lib.ValueIdx

noncomputable section

open scoped BigOperators

namespace Cert.Mlp

open Idealize.ShloMosaic Idealize.ShloMosaic.ValueIdx

/-- Entry `q` of the head of one row. -/
def head (x : Fin 50 → EReal) (w1 : (⟨2, ![50, 64]⟩ : Shape).Idx → EReal) (b1 : (⟨2, ![1, 64]⟩ : Shape).Idx → EReal)
    (w2 : (⟨2, ![64, 50]⟩ : Shape).Idx → EReal) (b2 : (⟨2, ![1, 50]⟩ : Shape).Idx → EReal) (q : Fin 50) : EReal :=
  (∑ k : Fin 64, max ((∑ j : Fin 50, x j * w1 (ix2 j k)) + b1 (ix2 (0 : Fin 1) k)) (Scalar.ofBits (F := Ideal) .f32 0x00000000#32)
      * w2 (ix2 k q))
    + b2 (ix2 (0 : Fin 1) q)

/-- The head applied to every row of an `R × 50` array. -/
def mlp {R : Nat} (x : (⟨2, ![R, 50]⟩ : Shape).Idx → EReal) (w1 : (⟨2, ![50, 64]⟩ : Shape).Idx → EReal)
    (b1 : (⟨2, ![1, 64]⟩ : Shape).Idx → EReal) (w2 : (⟨2, ![64, 50]⟩ : Shape).Idx → EReal)
    (b2 : (⟨2, ![1, 50]⟩ : Shape).Idx → EReal) : (⟨2, ![R, 50]⟩ : Shape).Idx → EReal :=
  fun i => head (fun j => x (ix2 (i 0) j)) w1 b1 w2 b2 (i 1)

/-- Entry `(r, q)` of `mlp` is the head of row `r` at `q`. -/
theorem mlp_apply {R : Nat} (x : (⟨2, ![R, 50]⟩ : Shape).Idx → EReal) (w1 : (⟨2, ![50, 64]⟩ : Shape).Idx → EReal)
    (b1 : (⟨2, ![1, 64]⟩ : Shape).Idx → EReal) (w2 : (⟨2, ![64, 50]⟩ : Shape).Idx → EReal)
    (b2 : (⟨2, ![1, 50]⟩ : Shape).Idx → EReal) (r : Fin R) (q : Fin 50) :
    mlp x w1 b1 w2 b2 (ix2 r q) = head (fun j => x (ix2 r j)) w1 b1 w2 b2 q := rfl

/-- The head depends on the row only through its entries. -/
theorem head_congr {x x' : Fin 50 → EReal} (h : ∀ j, x j = x' j) (w1 : (⟨2, ![50, 64]⟩ : Shape).Idx → EReal)
    (b1 : (⟨2, ![1, 64]⟩ : Shape).Idx → EReal) (w2 : (⟨2, ![64, 50]⟩ : Shape).Idx → EReal)
    (b2 : (⟨2, ![1, 50]⟩ : Shape).Idx → EReal) (q : Fin 50) : head x w1 b1 w2 b2 q = head x' w1 b1 w2 b2 q := by
  rw [show x = x' from funext h]

end Cert.Mlp

end
-- ==== Proof.KernelTile.lean ====
/-
  The body of the kernel, read at an entry over the extended reals.

  The body takes a block of 2048 rows of `x` and the whole of `w1`, `b1`, `w2`, `b2`, multiplies the rows by `w1` into a zero
  accumulator, adds the row `b1` to every row, takes the maximum with zero, multiplies by `w2` into a zero accumulator
  and adds the row `b2`; the changes of float format on the way into the two products are the identity on extended reals. A product
  into a zero accumulator is the plain sum over the contracted axis, so entry `(p, q)` of the result is the head of
  row `p` of the block at `q`.
-/
import proofs.«103131_g2000405674478816_pallasbulk_1188_2_alg».proof.Proof.Gen.KernelIdeal.Skeleton
import proofs.«103131_g2000405674478816_pallasbulk_1188_2_alg».proof.Proof.LibMatmulPlain
import proofs.«103131_g2000405674478816_pallasbulk_1188_2_alg».proof.Proof.Head
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Mlp

/-- The first product's dimension numbers are the plain ones: rows by columns, no batch axis. -/
theorem dims1 : dot_S2048x50_S50x64_S2048x64_1_0_0_1_n_n = DotDims.plain 2048 50 64 := rfl

/-- And so are the second's. -/
theorem dims2 : dot_S2048x64_S64x50_S2048x50_1_0_0_1_n_n = DotDims.plain 2048 64 50 := rfl

/-- The hidden layer at `(p, k)`: row `p` of the block times column `k` of `w1`, plus `b1` at `k`, cut off below at zero. -/
theorem hidden_apply (prec : Option ContractPrecision) {φ₁ φ₂ : FTy} (l : FVec Ideal S2048x50 φ₁) (r : FVec Ideal S50x64 φ₂)
    (v5 : Vec Ideal S1x64 .f32) (p : Fin 2048) (k : Fin 64) :
    maximumf (addf (matmul dot_S2048x50_S50x64_S2048x64_1_0_0_1_n_n prec l r (constant S2048x64 .f32 0x00000000#32))
        (broadcastTo S2048x64 v5 broadcasts_S1x64_S2048x64)) (broadcast S2048x64 (Scalar.ofBits (F := Ideal) .f32 0x00000000#32)) (ix2 p k)
      = max ((∑ j : Fin 50, l (ix2 p j) * r (ix2 j k)) + v5 (ix2 (0 : Fin 1) k)) (Scalar.ofBits (F := Ideal) .f32 0x00000000#32) := by
  rw [maximumf_apply, addf_apply, broadcast_apply, dims1]
  refine congrArg₂ max (congrArg₂ (· + ·) ?_ ?_) rfl
  · exact Cert.Lib.matmul_plain_zero_apply 2048 50 64 prec l r p k
  · exact broadcastTo_1b_ab_apply v5 broadcasts_S1x64_S2048x64 p k

/-- THE BODY'S RESULT AT `(p, q)` is the head of row `p` of the block at `q`. -/
theorem pay_apply (v0 : Vec Ideal S2048x50 .f32) (v2 : Vec Ideal S50x64 .f32) (v5 : Vec Ideal S1x64 .f32) (v10 : Vec Ideal S64x50 .f32)
    (v14 : Vec Ideal S1x50 .f32) (p : Fin 2048) (q : Fin 50) :
    k0_pay1 (F := Ideal) v0 v2 v5 v10 v14 (ix2 p q) = head (fun j => v0 (ix2 p j)) v2 v5 v10 v14 q := by
  unfold k0_pay1 head
  dsimp only
  rw [addf_apply, dims2]
  refine congrArg₂ (· + ·) ?_ ?_
  · refine (Cert.Lib.matmul_plain_zero_apply 2048 64 50 none _ _ p q).trans ?_
    refine Finset.sum_congr rfl fun k _ => ?_
    refine congrArg₂ (· * ·) ?_ rfl
    exact hidden_apply _ _ _ v5 p k
  · exact broadcastTo_1b_ab_apply v14 broadcasts_S1x50_S2048x50 p q

/-- THE BODY'S RESULT ON A BLOCK OF ROWS OF A TALLER ARRAY: if the block's row through `y` is the array's row through `i`
    and the two indices have the same column, the body's result at `y` is `mlp` of the array at `i`. -/
theorem pay_block {N : Nat} (x0 : Vec Ideal S2048x50 .f32) (w1 : Vec Ideal S50x64 .f32) (b1 : Vec Ideal S1x64 .f32) (w2 : Vec Ideal S64x50 .f32)
    (b2 : Vec Ideal S1x50 .f32) (X : (⟨2, ![N, 50]⟩ : Shape).Idx → EReal) (y : S2048x50.Idx) (i : (⟨2, ![N, 50]⟩ : Shape).Idx)
    (hx : ∀ (y' : S2048x50.Idx) (i' : (⟨2, ![N, 50]⟩ : Shape).Idx), (y' 0).val = (y 0).val → (i' 0).val = (i 0).val →
      (i' 1).val = (y' 1).val → x0 y' = X i')
    (h1 : (i 1).val = (y 1).val) :
    k0_pay1 (F := Ideal) x0 w1 b1 w2 b2 y = mlp X w1 b1 w2 b2 i := by
  obtain ⟨p, q, rfl⟩ : ∃ (p : Fin 2048) (q : Fin 50), y = ix2 p q := ⟨y 0, y 1, eq_ix2 y⟩
  obtain ⟨r, s, rfl⟩ : ∃ (r : Fin N) (s : Fin 50), i = ix2 r s := ⟨i 0, i 1, eq_ix2 i⟩
  obtain rfl : s = q := Fin.ext h1
  rw [pay_apply, mlp_apply]
  exact head_congr (fun j => hx (ix2 p j) (ix2 r j) rfl rfl rfl) _ _ _ _ _

end Cert.KernelIdeal.Tile

end
-- ==== Proof.KernelArray.lean ====
/-
  The whole result array of the kernel after its run, over the extended reals.

  The grid has 64 points. Point `t` is handed rows `2048·t … 2048·t + 2047` of `x` and the whole of `w1`, `b1`, `w2`, `b2`, and writes
  its result back to the same rows of the output. By the body's value (the tile module) what it writes is `mlp` of the
  arguments on those rows, because an entry of `mlp` depends on its own row of `x` only. The 64 row blocks cover the
  131072 rows (row `r` lies in block `r / 2048`), so the output array ends as `mlp` of the argument arrays.
-/
import proofs.«103131_g2000405674478816_pallasbulk_1188_2_alg».proof.Proof.Gen.KernelIdeal.Value
import proofs.«103131_g2000405674478816_pallasbulk_1188_2_alg».proof.Proof.KernelTile
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Tile Cert.Mlp Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The block indices, decided over the grid: the windows of `x` and of the output move down one block per point, the
    other four stay at the one block that is their whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the output array ends holding: `mlp` of the five argument arrays. -/
abbrev result (c : Dev nD) : S131072x50.Idx → EReal :=
  mlp (m ((c : Thread nD τ).loc main_arg0) : S131072x50.Idx → EReal) (m ((c : Thread nD τ).loc main_arg1) : S50x64.Idx → EReal)
    (m ((c : Thread nD τ).loc main_arg2) : S1x64.Idx → EReal) (m ((c : Thread nD τ).loc main_arg3) : S64x50.Idx → EReal)
    (m ((c : Thread nD τ).loc main_arg4) : S1x50.Idx → EReal)

/-- The block of `x` at point `t` is rows `2048·t …` of `x`. -/
theorem xblk_apply (c : Dev nD) (t : Fin cfg0.N) (y : S2048x50.Idx) (i : S131072x50.Idx)
    (h0 : (i 0).val = 2048 * t.val + (y 0).val) (h1 : (i 1).val = (y 1).val) :
    (iblk m c 0 t : Vec Ideal S2048x50 .f32) y = (m ((c : Thread nD τ).loc main_arg0) : S131072x50.Idx → EReal) i := by
  obtain ⟨e0, e1, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 50 + 1 * (y 1).val = (i 1).val; rw [e1, h1]; omega

/-- The block of `w1` at every point is `w1`. -/
theorem w1blk (c : Dev nD) (t : Fin cfg0.N) :
    (iblk m c 1 t : Vec Ideal S50x64 .f32) = (m ((c : Thread nD τ).loc main_arg1) : S50x64.Idx → EReal) := by
  obtain ⟨-, -, e0, e1, -⟩ := idx_facts t
  funext y
  unfold iblk
  rw [View.read_apply]
  show V m c main_arg1 _ = m (c.tc.loc main_arg1) _
  unfold V
  refine congrArg _ (funext fun a => Fin.ext ?_)
  match a with
  | ⟨0, _⟩ => show win0_1.index t (0 : Fin 2) * 50 + 1 * (y 0).val = (y 0).val; rw [e0]; omega
  | ⟨1, _⟩ => show win0_1.index t (1 : Fin 2) * 64 + 1 * (y 1).val = (y 1).val; rw [e1]; omega

/-- The block of `b1` at every point is `b1`. -/
theorem b1blk (c : Dev nD) (t : Fin cfg0.N) :
    (iblk m c 2 t : Vec Ideal S1x64 .f32) = (m ((c : Thread nD τ).loc main_arg2) : S1x64.Idx → EReal) := by
  obtain ⟨-, -, -, -, e0, e1, -⟩ := idx_facts t
  funext y
  unfold iblk
  rw [View.read_apply]
  show V m c main_arg2 _ = m (c.tc.loc main_arg2) _
  unfold V
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The block of `w2` at every point is `w2`. -/
theorem w2blk (c : Dev nD) (t : Fin cfg0.N) :
    (iblk m c 3 t : Vec Ideal S64x50 .f32) = (m ((c : Thread nD τ).loc main_arg3) : S64x50.Idx → EReal) := by
  obtain ⟨-, -, -, -, -, -, e0, e1, -⟩ := idx_facts t
  funext y
  unfold iblk
  rw [View.read_apply]
  show V m c main_arg3 _ = m (c.tc.loc main_arg3) _
  unfold V
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 50 + 1 * (y 1).val = (y 1).val; rw [e1]; omega

/-- The block of `b2` at every point is `b2`. -/
theorem b2blk (c : Dev nD) (t : Fin cfg0.N) :
    (iblk m c 4 t : Vec Ideal S1x50 .f32) = (m ((c : Thread nD τ).loc main_arg4) : S1x50.Idx → EReal) := by
  obtain ⟨-, -, -, -, -, -, -, -, e0, e1, -⟩ := idx_facts t
  funext y
  unfold iblk
  rw [View.read_apply]
  show V m c main_arg4 _ = m (c.tc.loc main_arg4) _
  unfold V
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 50 + 1 * (y 1).val = (y 1).val; rw [e1]; omega

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S2048x50) hz, View.ld_unit_zero (S := S50x64) hz, View.ld_unit_zero (S := S1x64) hz,
    View.ld_unit_zero (S := S64x50) hz, View.ld_unit_zero (S := S1x50) hz]
  rw [w1blk m c t, b1blk m c t, w2blk m c t, b2blk m c t]
  obtain ⟨-, -, -, -, -, -, -, -, -, -, e0, e1⟩ := idx_facts t
  funext j
  show k0_pay1 (F := Ideal) (iblk m c 0 t) _ _ _ _ j = result m c (((cfg0.win 5).blk t).view.emb j)
  have hr : ((((cfg0.win 5).blk t).view.emb j) 0).val = 2048 * t.val + (j 0).val := by
    show win0_5.index t (0 : Fin 2) * 2048 + 1 * (j 0).val = _; rw [e0]; omega
  have hc : ((((cfg0.win 5).blk t).view.emb j) 1).val = (j 1).val := by
    show win0_5.index t (1 : Fin 2) * 50 + 1 * (j 1).val = _; rw [e1]; omega
  exact pay_block (iblk m c 0 t) _ _ _ _ _ j (((cfg0.win 5).blk t).view.emb j)
    (fun y' i' h0 h1 h2 => xblk_apply m c t y' i' (by rw [h1, hr, h0]) h2) hc

/-- An index of the array is in point `t`'s block iff each coordinate is in the block's range on its axis. -/
theorem mem_blk (t : Fin cfg0.N) (i : S131072x50.Idx) :
    i ∈ ((cfg0.win 5).blk t).view.set ↔ ∀ a : Fin 2, win0_5.index t a * S2048x50.size a ≤ (i a).val ∧ (i a).val < win0_5.index t a * S2048x50.size a + S2048x50.size a := by
  show i ∈ ((View.whole main_v0).slice (win0_5.rect t)).set ↔ _
  rw [View.set_slice_whole, Rect.mem_set_unit]
  exact Iff.rfl

/-- THE COVER: row `r` of the array is in the block of point `r / 2048`. -/
theorem cover (i : S131072x50.Idx) : ∃ t : Fin cfg0.N, (cfg0.win 5).flush t = true ∧ i ∈ ((cfg0.win 5).blk t).view.set := by
  have hi0 : (i 0).val < 131072 := (i 0).isLt
  have hi1 : (i 1).val < 50 := (i 1).isLt
  have hN : cfg0.N = 64 := N_0
  have hq : (i 0).val / 2048 < cfg0.N := by rw [hN]; omega
  obtain ⟨-, -, -, -, -, -, -, -, -, -, e0, e1⟩ := idx_facts ⟨(i 0).val / 2048, hq⟩
  refine ⟨⟨(i 0).val / 2048, hq⟩, flush0_5 _, ?_⟩
  rw [mem_blk]
  intro a
  match a with
  | ⟨0, _⟩ =>
    show win0_5.index ⟨(i 0).val / 2048, hq⟩ (0 : Fin 2) * 2048 ≤ (i 0).val ∧ (i 0).val < win0_5.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, hq⟩ (1 : Fin 2) * 50 ≤ (i 1).val ∧ (i 1).val < win0_5.index ⟨(i 0).val / 2048, hq⟩ (1 : Fin 2) * 50 + 50
    rw [e1]; omega

/-- THE ARRAY after the run is `result`. -/
theorem final (c : Dev nD) : (dats m 0 c).arrAt 5 cfg0.N = result m c :=
  (dats m 0 c).arrAt_eq_of_cover 5 (result m c) (fun t _ => flushed_eq m c t) cover

/-- The run, read: the output array at `mlp` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Whole

end
-- ==== Proof.ReferenceTile.lean ====
/-
  The body of the reference kernel, read at an entry over the extended reals.

  The body takes a block of 1024 rows of `x` and the whole of `w1`, `b1`, `w2`, `b2`, multiplies the rows by `w1` into a zero
  accumulator, adds the row `b1` to every row, takes the maximum with zero, multiplies by `w2` into a zero accumulator
  and adds the row `b2`. A product
  into a zero accumulator is the plain sum over the contracted axis, so entry `(p, q)` of the result is the head of
  row `p` of the block at `q`.
-/
import proofs.«103131_g2000405674478816_pallasbulk_1188_2_alg».proof.Proof.Gen.ReferenceIdeal.Skeleton
import proofs.«103131_g2000405674478816_pallasbulk_1188_2_alg».proof.Proof.LibMatmulPlain
import proofs.«103131_g2000405674478816_pallasbulk_1188_2_alg».proof.Proof.Head
import Idealize.ShloMosaic.Lib.ValueIdx
import Idealize.ShloMosaic.Lib.ValueLayout
import Idealize.ShloMosaic.PureOps.Ideal.Laws

noncomputable section

open scoped BigOperators

namespace Cert.ReferenceIdeal.Tile

open Cert.ReferenceIdeal Cert.ReferenceIdeal.Gen Idealize.ShloMosaic Idealize.ShloMosaic.ValueIdx Cert.Mlp

/-- The first product's dimension numbers are the plain ones: rows by columns, no batch axis. -/
theorem dims1 : dot_S1024x50_S50x64_S1024x64_1_0_0_1_n_n = DotDims.plain 1024 50 64 := rfl

/-- And so are the second's. -/
theorem dims2 : dot_S1024x64_S64x50_S1024x50_1_0_0_1_n_n = DotDims.plain 1024 64 50 := rfl

/-- The hidden layer at `(p, k)`: row `p` of the block times column `k` of `w1`, plus `b1` at `k`, cut off below at zero. -/
theorem hidden_apply (prec : Option ContractPrecision) {φ₁ φ₂ : FTy} (l : FVec Ideal S1024x50 φ₁) (r : FVec Ideal S50x64 φ₂)
    (v5 : Vec Ideal S1x64 .f32) (p : Fin 1024) (k : Fin 64) :
    maximumf (addf (matmul dot_S1024x50_S50x64_S1024x64_1_0_0_1_n_n prec l r (constant S1024x64 .f32 0x00000000#32))
        (broadcastTo S1024x64 v5 broadcasts_S1x64_S1024x64)) (broadcast S1024x64 (Scalar.ofBits (F := Ideal) .f32 0x00000000#32)) (ix2 p k)
      = max ((∑ j : Fin 50, l (ix2 p j) * r (ix2 j k)) + v5 (ix2 (0 : Fin 1) k)) (Scalar.ofBits (F := Ideal) .f32 0x00000000#32) := by
  rw [maximumf_apply, addf_apply, broadcast_apply, dims1]
  refine congrArg₂ max (congrArg₂ (· + ·) ?_ ?_) rfl
  · exact Cert.Lib.matmul_plain_zero_apply 1024 50 64 prec l r p k
  · exact broadcastTo_1b_ab_apply v5 broadcasts_S1x64_S1024x64 p k

/-- THE BODY'S RESULT AT `(p, q)` is the head of row `p` of the block at `q`. -/
theorem pay_apply (v0 : Vec Ideal S1024x50 .f32) (v2 : Vec Ideal S50x64 .f32) (v5 : Vec Ideal S1x64 .f32) (v10 : Vec Ideal S64x50 .f32)
    (v14 : Vec Ideal S1x50 .f32) (p : Fin 1024) (q : Fin 50) :
    k0_pay1 (F := Ideal) v0 v2 v5 v10 v14 (ix2 p q) = head (fun j => v0 (ix2 p j)) v2 v5 v10 v14 q := by
  unfold k0_pay1 head
  dsimp only
  rw [addf_apply, dims2]
  refine congrArg₂ (· + ·) ?_ ?_
  · refine (Cert.Lib.matmul_plain_zero_apply 1024 64 50 (some .fp32) _ _ p q).trans ?_
    refine Finset.sum_congr rfl fun k _ => ?_
    refine congrArg₂ (· * ·) ?_ rfl
    exact hidden_apply _ _ _ v5 p k
  · exact broadcastTo_1b_ab_apply v14 broadcasts_S1x50_S1024x50 p q

/-- THE BODY'S RESULT ON A BLOCK OF ROWS OF A TALLER ARRAY: if the block's row through `y` is the array's row through `i`
    and the two indices have the same column, the body's result at `y` is `mlp` of the array at `i`. -/
theorem pay_block {N : Nat} (x0 : Vec Ideal S1024x50 .f32) (w1 : Vec Ideal S50x64 .f32) (b1 : Vec Ideal S1x64 .f32) (w2 : Vec Ideal S64x50 .f32)
    (b2 : Vec Ideal S1x50 .f32) (X : (⟨2, ![N, 50]⟩ : Shape).Idx → EReal) (y : S1024x50.Idx) (i : (⟨2, ![N, 50]⟩ : Shape).Idx)
    (hx : ∀ (y' : S1024x50.Idx) (i' : (⟨2, ![N, 50]⟩ : Shape).Idx), (y' 0).val = (y 0).val → (i' 0).val = (i 0).val →
      (i' 1).val = (y' 1).val → x0 y' = X i')
    (h1 : (i 1).val = (y 1).val) :
    k0_pay1 (F := Ideal) x0 w1 b1 w2 b2 y = mlp X w1 b1 w2 b2 i := by
  obtain ⟨p, q, rfl⟩ : ∃ (p : Fin 1024) (q : Fin 50), y = ix2 p q := ⟨y 0, y 1, eq_ix2 y⟩
  obtain ⟨r, s, rfl⟩ : ∃ (r : Fin N) (s : Fin 50), i = ix2 r s := ⟨i 0, i 1, eq_ix2 i⟩
  obtain rfl : s = q := Fin.ext h1
  rw [pay_apply, mlp_apply]
  exact head_congr (fun j => hx (ix2 p j) (ix2 r j) rfl rfl rfl) _ _ _ _ _

end Cert.ReferenceIdeal.Tile

end
-- ==== Proof.ReferenceArray.lean ====
/-
  The whole result array of the reference kernel after its run, over the extended reals.

  The grid has 128 points. Point `t` is handed rows `1024·t … 1024·t + 1023` of `x` and the whole of `w1`, `b1`, `w2`, `b2`, and writes
  its result back to the same rows of the output. By the body's value (the tile module) what it writes is `mlp` of the
  arguments on those rows, because an entry of `mlp` depends on its own row of `x` only. The 128 row blocks cover the
  131072 rows (row `r` lies in block `r / 1024`), so the output array ends as `mlp` of the argument arrays.
-/
import proofs.«103131_g2000405674478816_pallasbulk_1188_2_alg».proof.Proof.Gen.ReferenceIdeal.Value
import proofs.«103131_g2000405674478816_pallasbulk_1188_2_alg».proof.Proof.ReferenceTile
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Whole

open Cert.ReferenceIdeal Cert.ReferenceIdeal.Gen Cert.ReferenceIdeal.Value Cert.ReferenceIdeal.Tile Cert.Mlp Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The block indices, decided over the grid: the windows of `x` and of the output move down one block per point, the
    other four stay at the one block that is their whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the output array ends holding: `mlp` of the five argument arrays. -/
abbrev result (c : Dev nD) : S131072x50.Idx → EReal :=
  mlp (m ((c : Thread nD τ).loc main_arg0) : S131072x50.Idx → EReal) (m ((c : Thread nD τ).loc main_arg1) : S50x64.Idx → EReal)
    (m ((c : Thread nD τ).loc main_arg2) : S1x64.Idx → EReal) (m ((c : Thread nD τ).loc main_arg3) : S64x50.Idx → EReal)
    (m ((c : Thread nD τ).loc main_arg4) : S1x50.Idx → EReal)

/-- The block of `x` at point `t` is rows `1024·t …` of `x`. -/
theorem xblk_apply (c : Dev nD) (t : Fin cfg0.N) (y : S1024x50.Idx) (i : S131072x50.Idx)
    (h0 : (i 0).val = 1024 * t.val + (y 0).val) (h1 : (i 1).val = (y 1).val) :
    (iblk m c 0 t : Vec Ideal S1024x50 .f32) y = (m ((c : Thread nD τ).loc main_arg0) : S131072x50.Idx → EReal) i := by
  obtain ⟨e0, e1, -⟩ := idx_facts t
  unfold iblk
  rw [View.read_apply]
  show V m c main_arg0 _ = m (c.tc.loc main_arg0) _
  unfold V
  refine congrArg _ (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 50 + 1 * (y 1).val = (i 1).val; rw [e1, h1]; omega

/-- The block of `w1` at every point is `w1`. -/
theorem w1blk (c : Dev nD) (t : Fin cfg0.N) :
    (iblk m c 1 t : Vec Ideal S50x64 .f32) = (m ((c : Thread nD τ).loc main_arg1) : S50x64.Idx → EReal) := by
  obtain ⟨-, -, e0, e1, -⟩ := idx_facts t
  funext y
  unfold iblk
  rw [View.read_apply]
  show V m c main_arg1 _ = m (c.tc.loc main_arg1) _
  unfold V
  refine congrArg _ (funext fun a => Fin.ext ?_)
  match a with
  | ⟨0, _⟩ => show win0_1.index t (0 : Fin 2) * 50 + 1 * (y 0).val = (y 0).val; rw [e0]; omega
  | ⟨1, _⟩ => show win0_1.index t (1 : Fin 2) * 64 + 1 * (y 1).val = (y 1).val; rw [e1]; omega

/-- The block of `b1` at every point is `b1`. -/
theorem b1blk (c : Dev nD) (t : Fin cfg0.N) :
    (iblk m c 2 t : Vec Ideal S1x64 .f32) = (m ((c : Thread nD τ).loc main_arg2) : S1x64.Idx → EReal) := by
  obtain ⟨-, -, -, -, e0, e1, -⟩ := idx_facts t
  funext y
  unfold iblk
  rw [View.read_apply]
  show V m c main_arg2 _ = m (c.tc.loc main_arg2) _
  unfold V
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The block of `w2` at every point is `w2`. -/
theorem w2blk (c : Dev nD) (t : Fin cfg0.N) :
    (iblk m c 3 t : Vec Ideal S64x50 .f32) = (m ((c : Thread nD τ).loc main_arg3) : S64x50.Idx → EReal) := by
  obtain ⟨-, -, -, -, -, -, e0, e1, -⟩ := idx_facts t
  funext y
  unfold iblk
  rw [View.read_apply]
  show V m c main_arg3 _ = m (c.tc.loc main_arg3) _
  unfold V
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 50 + 1 * (y 1).val = (y 1).val; rw [e1]; omega

/-- The block of `b2` at every point is `b2`. -/
theorem b2blk (c : Dev nD) (t : Fin cfg0.N) :
    (iblk m c 4 t : Vec Ideal S1x50 .f32) = (m ((c : Thread nD τ).loc main_arg4) : S1x50.Idx → EReal) := by
  obtain ⟨-, -, -, -, -, -, -, -, e0, e1, -⟩ := idx_facts t
  funext y
  unfold iblk
  rw [View.read_apply]
  show V m c main_arg4 _ = m (c.tc.loc main_arg4) _
  unfold V
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 50 + 1 * (y 1).val = (y 1).val; rw [e1]; omega

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S1024x50) hz, View.ld_unit_zero (S := S50x64) hz, View.ld_unit_zero (S := S1x64) hz,
    View.ld_unit_zero (S := S64x50) hz, View.ld_unit_zero (S := S1x50) hz]
  rw [w1blk m c t, b1blk m c t, w2blk m c t, b2blk m c t]
  obtain ⟨-, -, -, -, -, -, -, -, -, -, e0, e1⟩ := idx_facts t
  funext j
  show k0_pay1 (F := Ideal) (iblk m c 0 t) _ _ _ _ j = result m c (((cfg0.win 5).blk t).view.emb j)
  have hr : ((((cfg0.win 5).blk t).view.emb j) 0).val = 1024 * t.val + (j 0).val := by
    show win0_5.index t (0 : Fin 2) * 1024 + 1 * (j 0).val = _; rw [e0]; omega
  have hc : ((((cfg0.win 5).blk t).view.emb j) 1).val = (j 1).val := by
    show win0_5.index t (1 : Fin 2) * 50 + 1 * (j 1).val = _; rw [e1]; omega
  exact pay_block (iblk m c 0 t) _ _ _ _ _ j (((cfg0.win 5).blk t).view.emb j)
    (fun y' i' h0 h1 h2 => xblk_apply m c t y' i' (by rw [h1, hr, h0]) h2) hc

/-- An index of the array is in point `t`'s block iff each coordinate is in the block's range on its axis. -/
theorem mem_blk (t : Fin cfg0.N) (i : S131072x50.Idx) :
    i ∈ ((cfg0.win 5).blk t).view.set ↔ ∀ a : Fin 2, win0_5.index t a * S1024x50.size a ≤ (i a).val ∧ (i a).val < win0_5.index t a * S1024x50.size a + S1024x50.size a := by
  show i ∈ ((View.whole main_v0).slice (win0_5.rect t)).set ↔ _
  rw [View.set_slice_whole, Rect.mem_set_unit]
  exact Iff.rfl

/-- THE COVER: row `r` of the array is in the block of point `r / 1024`. -/
theorem cover (i : S131072x50.Idx) : ∃ t : Fin cfg0.N, (cfg0.win 5).flush t = true ∧ i ∈ ((cfg0.win 5).blk t).view.set := by
  have hi0 : (i 0).val < 131072 := (i 0).isLt
  have hi1 : (i 1).val < 50 := (i 1).isLt
  have hN : cfg0.N = 128 := N_0
  have hq : (i 0).val / 1024 < cfg0.N := by rw [hN]; omega
  obtain ⟨-, -, -, -, -, -, -, -, -, -, e0, e1⟩ := idx_facts ⟨(i 0).val / 1024, hq⟩
  refine ⟨⟨(i 0).val / 1024, hq⟩, flush0_5 _, ?_⟩
  rw [mem_blk]
  intro a
  match a with
  | ⟨0, _⟩ =>
    show win0_5.index ⟨(i 0).val / 1024, hq⟩ (0 : Fin 2) * 1024 ≤ (i 0).val ∧ (i 0).val < win0_5.index ⟨(i 0).val / 1024, hq⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, hq⟩ (1 : Fin 2) * 50 ≤ (i 1).val ∧ (i 1).val < win0_5.index ⟨(i 0).val / 1024, hq⟩ (1 : Fin 2) * 50 + 50
    rw [e1]; omega

/-- THE ARRAY after the run is `result`. -/
theorem final (c : Dev nD) : (dats m 0 c).arrAt 5 cfg0.N = result m c :=
  (dats m 0 c).arrAt_eq_of_cover 5 (result m c) (fun t _ => flushed_eq m c t) cover

/-- The run, read: the output array at `mlp` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.ReferenceIdeal.Whole

end
-- ==== Proof.lean ====
/-
  The kernel and its reference compute one function over the extended reals.

  Both programs are one tiled call of a two-layer head: `y = max (x · w1 + b1) 0 · w2 + b2` on `x : 131072 × 50`, row by
  row. The kernel cuts `x` into 64 blocks of 2048 rows and narrows the operands of its two products to bf16 first; the
  reference cuts it into 128 blocks of 1024 rows and multiplies in f32 at the highest precision. Over the extended
  reals a change of float format is the identity and a product into a zero accumulator is the exact sum whatever its
  precision, so each body computes, at entry `(p, q)` of its block, the head of the block's row `p` at `q` (`Cert.Mlp.head`).
  An entry of the result depends on its own row of `x` only, hence each block written back is the same rows of the
  whole-array function `Cert.Mlp.mlp` of the five arguments, and since the blocks cover all 131072 rows in both tilings
  both output arrays end as `mlp` of the arguments. Commutativity, associativity or distributivity are never used —
  the two sums have the same terms in the same order — so the finiteness of the inputs is not needed.

  The frames of the three programs are the generated ones; the idealization rewrote no operation of the kernel, so
  there is nothing to preserve.
-/
import proofs.«103131_g2000405674478816_pallasbulk_1188_2_alg».proof.Defs
import proofs.«103131_g2000405674478816_pallasbulk_1188_2_alg».proof.Proof.Gen.Kernel
import proofs.«103131_g2000405674478816_pallasbulk_1188_2_alg».proof.Proof.Gen.Kernel.Frame
import proofs.«103131_g2000405674478816_pallasbulk_1188_2_alg».proof.Proof.Gen.KernelIdeal
import proofs.«103131_g2000405674478816_pallasbulk_1188_2_alg».proof.Proof.Gen.KernelIdeal.Frame
import proofs.«103131_g2000405674478816_pallasbulk_1188_2_alg».proof.Proof.Gen.KernelIdeal.Value
import proofs.«103131_g2000405674478816_pallasbulk_1188_2_alg».proof.Proof.Gen.ReferenceIdeal
import proofs.«103131_g2000405674478816_pallasbulk_1188_2_alg».proof.Proof.Gen.ReferenceIdeal.Frame
import proofs.«103131_g2000405674478816_pallasbulk_1188_2_alg».proof.Proof.Gen.ReferenceIdeal.Value
import proofs.«103131_g2000405674478816_pallasbulk_1188_2_alg».proof.Proof.Gen.Pre_finite_inputs
import proofs.«103131_g2000405674478816_pallasbulk_1188_2_alg».proof.Proof.KernelArray
import proofs.«103131_g2000405674478816_pallasbulk_1188_2_alg».proof.Proof.ReferenceArray
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories that agree on the five arguments both runs end with the output array at `mlp` of the arguments: the
    kernel's of its own, the reference's of its own, which are the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  unfold Cert.ReferenceIdeal.Whole.result Cert.KernelIdeal.Whole.result
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
